-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x16 : Shape := ⟨2, ![256, 16]⟩
abbrev S16 : Shape := ⟨1, ![16]⟩
abbrev S11 : Shape := ⟨1, ![11]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S11 : S_.BroadcastsInDim S11 (![] : Fin 0 → Fin S11.rank)
  reducesTo_S11_S_d0 : S11.ReducesTo [0] S_

variable [Facts]

def fn_part1 {F : FTy → Type} [FloatOps F] (main_arg4 : FVec F S16 .f32) (main_arg5 : FVec F S11 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S11 .f32 := Host.absf main_arg5
  let main_cst_8 : FVec F S_ .f32 := constant S_ .f32 0x7F800000#32
  let main_v25 : FVec F S11 .f32 := broadcastInDim S11 ![] bcast_S_S11 main_cst_8
  let main_v26 : IVec S11 1 := cmpf .olt main_v24 main_v25
  let main_c_9 : IVec S_ 1 := constantI S_ 1 1#1
  let main_v27 : IVec S_ 1 := (fun x v => Host.reduce IntOp.andi x v reducesTo_S11_S_d0 h_S_) main_v26 main_c_9
  let main_v28 : IVec S_ 1 := andi main_v23 main_v27
  main_v28

def fn {F : FTy → Type} [FloatOps F] (main_arg0 : FVec F S100000x512 .f32) (main_arg1 : FVec F S512x256 .f32) (main_arg2 : FVec F S256 .f32) (main_arg3 : FVec F S256x16 .f32) (main_arg4 : FVec F S16 .f32) (main_arg5 : FVec F S11 .f32) (main_arg6 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_v13 main_v16
-- ==== Kernel.lean ====
abbrev S100000x512 : Shape := ⟨2, ![100000, 512]⟩
abbrev S512x256 : Shape := ⟨2, ![512, 256]⟩
abbrev S256 : Shape := ⟨1, ![256]⟩
abbrev S256x16 : Shape := ⟨2, ![256, 16]⟩
abbrev S16 : Shape := ⟨1, ![16]⟩
abbrev S11 : Shape := ⟨1, ![11]⟩
abbrev S2x3200000 : Shape := ⟨2, ![2, 3200000]⟩
abbrev S1x256 : Shape := ⟨2, ![1, 256]⟩
abbrev S1x16 : Shape := ⟨2, ![1, 16]⟩
abbrev S100000x16 : Shape := ⟨2, ![100000, 16]⟩
abbrev S5000x512 : Shape := ⟨2, ![5000, 512]⟩
abbrev S5000x16 : Shape := ⟨2, ![5000, 16]⟩
abbrev S5000x256 : Shape := ⟨2, ![5000, 256]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1 : Shape := ⟨1, ![1]⟩
abbrev S3200000x16 : Shape := ⟨2, ![3200000, 16]⟩

abbrev nBuf : Space → Nat
  | .hbm => 263
  | .vmem => 8
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x16, .f32⟩
  | 4 => ⟨S16, .f32⟩
  | 5 => ⟨S11, .f32⟩
  | 6 => ⟨S2x3200000, .i32⟩
  | 7 => ⟨S1x256, .f32⟩
  | 8 => ⟨S1x16, .f32⟩
  | 9 => ⟨S100000x16, .f32⟩
  | 10 => ⟨S1x3200000, .i32⟩
  | 11 => ⟨S3200000, .i32⟩
  | 12 => ⟨S1x3200000, .i32⟩
  | 13 => ⟨S3200000, .i32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S1, .f32⟩
  | 50 => ⟨S_, .f32⟩
  | 51 => ⟨S100000x16, .f32⟩
  | 52 => ⟨S100000x16, .f32⟩
  | 53 => ⟨S3200000x1, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x16, .f32⟩
  | 63 => ⟨S3200000x16, .f32⟩
  | 64 => ⟨S3200000x16, .f32⟩
  | 65 => ⟨S_, .f32⟩
  | 66 => ⟨S100000x16, .f32⟩
  | 67 => ⟨S3200000x1, .i32⟩
  | 68 => ⟨S100000x16, .f32⟩
  | 69 => ⟨S1, .f32⟩
  | 70 => ⟨S_, .f32⟩
  | 71 => ⟨S100000x16, .f32⟩
  | 72 => ⟨S100000x16, .f32⟩
  | 73 => ⟨S100000x16, .f32⟩
  | 74 => ⟨S3200000x1, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x16, .f32⟩
  | 84 => ⟨S3200000x16, .f32⟩
  | 85 => ⟨S3200000x16, .f32⟩
  | 86 => ⟨S_, .f32⟩
  | 87 => ⟨S100000x16, .f32⟩
  | 88 => ⟨S3200000x1, .i32⟩
  | 89 => ⟨S100000x16, .f32⟩
  | 90 => ⟨S1, .f32⟩
  | 91 => ⟨S_, .f32⟩
  | 92 => ⟨S100000x16, .f32⟩
  | 93 => ⟨S100000x16, .f32⟩
  | 94 => ⟨S100000x16, .f32⟩
  | 95 => ⟨S3200000x1, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x16, .f32⟩
  | 105 => ⟨S3200000x16, .f32⟩
  | 106 => ⟨S3200000x16, .f32⟩
  | 107 => ⟨S_, .f32⟩
  | 108 => ⟨S100000x16, .f32⟩
  | 109 => ⟨S3200000x1, .i32⟩
  | 110 => ⟨S100000x16, .f32⟩
  | 111 => ⟨S1, .f32⟩
  | 112 => ⟨S_, .f32⟩
  | 113 => ⟨S100000x16, .f32⟩
  | 114 => ⟨S100000x16, .f32⟩
  | 115 => ⟨S100000x16, .f32⟩
  | 116 => ⟨S3200000x1, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000x16, .f32⟩
  | 126 => ⟨S3200000x16, .f32⟩
  | 127 => ⟨S3200000x16, .f32⟩
  | _ => ⟨S100000x512, .f32⟩

abbrev hbmTy0_1 (i : Nat) : BufTy := match i % 128 with
  | 0 => ⟨S_, .f32⟩
  | 1 => ⟨S100000x16, .f32⟩
  | 2 => ⟨S3200000x1, .i32⟩
  | 3 => ⟨S100000x16, .f32⟩
  | 4 => ⟨S1, .f32⟩
  | 5 => ⟨S_, .f32⟩
  | 6 => ⟨S100000x16, .f32⟩
  | 7 => ⟨S100000x16, .f32⟩
  | 8 => ⟨S100000x16, .f32⟩
  | 9 => ⟨S3200000x1, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000x16, .f32⟩
  | 19 => ⟨S3200000x16, .f32⟩
  | 20 => ⟨S3200000x16, .f32⟩
  | 21 => ⟨S_, .f32⟩
  | 22 => ⟨S100000x16, .f32⟩
  | 23 => ⟨S3200000x1, .i32⟩
  | 24 => ⟨S100000x16, .f32⟩
  | 25 => ⟨S1, .f32⟩
  | 26 => ⟨S_, .f32⟩
  | 27 => ⟨S100000x16, .f32⟩
  | 28 => ⟨S100000x16, .f32⟩
  | 29 => ⟨S100000x16, .f32⟩
  | 30 => ⟨S3200000x1, .f32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000x16, .f32⟩
  | 40 => ⟨S3200000x16, .f32⟩
  | 41 => ⟨S3200000x16, .f32⟩
  | 42 => ⟨S_, .f32⟩
  | 43 => ⟨S100000x16, .f32⟩
  | 44 => ⟨S3200000x1, .i32⟩
  | 45 => ⟨S100000x16, .f32⟩
  | 46 => ⟨S1, .f32⟩
  | 47 => ⟨S_, .f32⟩
  | 48 => ⟨S100000x16, .f32⟩
  | 49 => ⟨S100000x16, .f32⟩
  | 50 => ⟨S100000x16, .f32⟩
  | 51 => ⟨S3200000x1, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x16, .f32⟩
  | 61 => ⟨S3200000x16, .f32⟩
  | 62 => ⟨S3200000x16, .f32⟩
  | 63 => ⟨S_, .f32⟩
  | 64 => ⟨S100000x16, .f32⟩
  | 65 => ⟨S3200000x1, .i32⟩
  | 66 => ⟨S100000x16, .f32⟩
  | 67 => ⟨S1, .f32⟩
  | 68 => ⟨S_, .f32⟩
  | 69 => ⟨S100000x16, .f32⟩
  | 70 => ⟨S100000x16, .f32⟩
  | 71 => ⟨S100000x16, .f32⟩
  | 72 => ⟨S3200000x1, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x16, .f32⟩
  | 82 => ⟨S3200000x16, .f32⟩
  | 83 => ⟨S3200000x16, .f32⟩
  | 84 => ⟨S_, .f32⟩
  | 85 => ⟨S100000x16, .f32⟩
  | 86 => ⟨S3200000x1, .i32⟩
  | 87 => ⟨S100000x16, .f32⟩
  | 88 => ⟨S1, .f32⟩
  | 89 => ⟨S_, .f32⟩
  | 90 => ⟨S100000x16, .f32⟩
  | 91 => ⟨S100000x16, .f32⟩
  | 92 => ⟨S100000x16, .f32⟩
  | 93 => ⟨S3200000x1, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x16, .f32⟩
  | 103 => ⟨S3200000x16, .f32⟩
  | 104 => ⟨S3200000x16, .f32⟩
  | 105 => ⟨S_, .f32⟩
  | 106 => ⟨S100000x16, .f32⟩
  | 107 => ⟨S3200000x1, .i32⟩
  | 108 => ⟨S100000x16, .f32⟩
  | 109 => ⟨S1, .f32⟩
  | 110 => ⟨S_, .f32⟩
  | 111 => ⟨S100000x16, .f32⟩
  | 112 => ⟨S100000x16, .f32⟩
  | 113 => ⟨S100000x16, .f32⟩
  | 114 => ⟨S3200000x1, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x16, .f32⟩
  | 124 => ⟨S3200000x16, .f32⟩
  | 125 => ⟨S3200000x16, .f32⟩
  | 126 => ⟨S_, .f32⟩
  | 127 => ⟨S100000x16, .f32⟩
  | _ => ⟨S100000x512, .f32⟩

abbrev hbmTy0_2 (i : Nat) : BufTy := match i % 128 with
  | 0 => ⟨S3200000x1, .i32⟩
  | 1 => ⟨S100000x16, .f32⟩
  | 2 => ⟨S1, .f32⟩
  | 3 => ⟨S_, .f32⟩
  | 4 => ⟨S100000x16, .f32⟩
  | 5 => ⟨S100000x16, .f32⟩
  | 6 => ⟨S100000x16, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x256, .f32⟩
  | .local _ .vmem, ⟨3, _⟩ => ⟨S1x256, .f32⟩
  | .local _ .vmem, ⟨4, _⟩ => ⟨S256x16, .f32⟩
  | .local _ .vmem, ⟨5, _⟩ => ⟨S1x16, .f32⟩
  | .local _ .vmem, ⟨6, _⟩ => ⟨S5000x16, .f32⟩
  | .local _ .vmem, ⟨7, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_13 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_16 : Ref sig .tc := ⟨.hbm, 117, rfl⟩
abbrev main_v90 : Ref sig .tc := ⟨.hbm, 118, rfl⟩
abbrev main_v91 : Ref sig .tc := ⟨.hbm, 119, rfl⟩
abbrev main_c_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_18 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_19 : Ref sig .tc := ⟨.hbm, 138, rfl⟩
abbrev main_v108 : Ref sig .tc := ⟨.hbm, 139, rfl⟩
abbrev main_v109 : Ref sig .tc := ⟨.hbm, 140, rfl⟩
abbrev main_c_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_21 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_c_22 : Ref sig .tc := ⟨.hbm, 159, rfl⟩
abbrev main_v126 : Ref sig .tc := ⟨.hbm, 160, rfl⟩
abbrev main_v127 : Ref sig .tc := ⟨.hbm, 161, rfl⟩
abbrev main_c_23 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_24 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_c_25 : Ref sig .tc := ⟨.hbm, 180, rfl⟩
abbrev main_v144 : Ref sig .tc := ⟨.hbm, 181, rfl⟩
abbrev main_v145 : Ref sig .tc := ⟨.hbm, 182, rfl⟩
abbrev main_c_26 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_27 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_c_28 : Ref sig .tc := ⟨.hbm, 201, rfl⟩
abbrev main_v162 : Ref sig .tc := ⟨.hbm, 202, rfl⟩
abbrev main_v163 : Ref sig .tc := ⟨.hbm, 203, rfl⟩
abbrev main_c_29 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_cst_30 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_c_31 : Ref sig .tc := ⟨.hbm, 222, rfl⟩
abbrev main_v180 : Ref sig .tc := ⟨.hbm, 223, rfl⟩
abbrev main_v181 : Ref sig .tc := ⟨.hbm, 224, rfl⟩
abbrev main_c_32 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_cst_33 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_c_34 : Ref sig .tc := ⟨.hbm, 243, rfl⟩
abbrev main_v198 : Ref sig .tc := ⟨.hbm, 244, rfl⟩
abbrev main_v199 : Ref sig .tc := ⟨.hbm, 245, rfl⟩
abbrev main_c_35 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_cst_36 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S16_S1x16 : S16.ShapeCasts S1x16
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  slices_S11_S1_0 : S11.Slices ![0] S1
  shapeCasts_S1_S_ : S1.ShapeCasts S_
  bcast_S_S100000x16 : S_.BroadcastsInDim S100000x16 (![] : Fin 0 → Fin S100000x16.rank)
  bcast_S3200000x1_S3200000x16_0_1 : S3200000x1.BroadcastsInDim S3200000x16 (![0, 1] : Fin 2 → Fin S3200000x16.rank)
  slices_S11_S1_1 : S11.Slices ![1] S1
  slices_S11_S1_2 : S11.Slices ![2] S1
  slices_S11_S1_3 : S11.Slices ![3] S1
  slices_S11_S1_4 : S11.Slices ![4] S1
  slices_S11_S1_5 : S11.Slices ![5] S1
  slices_S11_S1_6 : S11.Slices ![6] S1
  slices_S11_S1_7 : S11.Slices ![7] S1
  slices_S11_S1_8 : S11.Slices ![8] S1
  slices_S11_S1_9 : S11.Slices ![9] S1
  slices_S11_S1_10 : S11.Slices ![10] S1
  dot_S5000x512_S512x256_S5000x256_1_0_0_1_n_n_wf : DotDims.WF S5000x512 S512x256 S5000x256 [1] [0] [0] [1] [] []
  dot_S5000x256_S256x16_S5000x16_1_0_0_1_n_n_wf : DotDims.WF S5000x256 S256x16 S5000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)

variable [Facts₀]

def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x16 : Shape := ⟨2, ![256, 16]⟩
abbrev S16 : Shape := ⟨1, ![16]⟩
abbrev S11 : Shape := ⟨1, ![11]⟩
abbrev S2x3200000 : Shape := ⟨2, ![2, 3200000]⟩
abbrev S100000x256 : Shape := ⟨2, ![100000, 256]⟩
abbrev S1x256 : Shape := ⟨2, ![1, 256]⟩
abbrev S_ : Shape := ⟨0, ![]⟩
abbrev S100000x16 : Shape := ⟨2, ![100000, 16]⟩
abbrev S1x16 : Shape := ⟨2, ![1, 16]⟩
abbrev S1x3200000 : Shape := ⟨2, ![1, 3200000]⟩
abbrev S3200000 : Shape := ⟨1, ![3200000]⟩
abbrev S100000 : Shape := ⟨1, ![100000]⟩
abbrev S3200000x1 : Shape := ⟨2, ![3200000, 1]⟩
abbrev S1 : Shape := ⟨1, ![1]⟩
abbrev S3200000x16 : Shape := ⟨2, ![3200000, 16]⟩

abbrev nBuf : Space → Nat
  | .hbm => 271
  | .vmem => 0
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x16, .f32⟩
  | 4 => ⟨S16, .f32⟩
  | 5 => ⟨S11, .f32⟩
  | 6 => ⟨S2x3200000, .i32⟩
  | 7 => ⟨S100000x256, .f32⟩
  | 8 => ⟨S1x256, .f32⟩
  | 9 => ⟨S100000x256, .f32⟩
  | 10 => ⟨S100000x256, .f32⟩
  | 11 => ⟨S_, .f32⟩
  | 12 => ⟨S100000x256, .f32⟩
  | 13 => ⟨S100000x256, .f32⟩
  | 14 => ⟨S100000x16, .f32⟩
  | 15 => ⟨S1x16, .f32⟩
  | 16 => ⟨S100000x16, .f32⟩
  | 17 => ⟨S100000x16, .f32⟩
  | 18 => ⟨S1x3200000, .i32⟩
  | 19 => ⟨S3200000, .i32⟩
  | 20 => ⟨S1x3200000, .i32⟩
  | 21 => ⟨S3200000, .i32⟩
  | 22 => ⟨S_, .f32⟩
  | 23 => ⟨S3200000, .f32⟩
  | 24 => ⟨S_, .f32⟩
  | 25 => ⟨S100000, .f32⟩
  | 26 => ⟨S3200000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000, .f32⟩
  | 56 => ⟨S3200000, .f32⟩
  | 57 => ⟨S1, .f32⟩
  | 58 => ⟨S_, .f32⟩
  | 59 => ⟨S100000x16, .f32⟩
  | 60 => ⟨S100000x16, .f32⟩
  | 61 => ⟨S3200000x1, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000x16, .f32⟩
  | 71 => ⟨S3200000x16, .f32⟩
  | 72 => ⟨S3200000x16, .f32⟩
  | 73 => ⟨S_, .f32⟩
  | 74 => ⟨S100000x16, .f32⟩
  | 75 => ⟨S3200000x1, .i32⟩
  | 76 => ⟨S100000x16, .f32⟩
  | 77 => ⟨S1, .f32⟩
  | 78 => ⟨S_, .f32⟩
  | 79 => ⟨S100000x16, .f32⟩
  | 80 => ⟨S100000x16, .f32⟩
  | 81 => ⟨S100000x16, .f32⟩
  | 82 => ⟨S3200000x1, .f32⟩
  | 83 => ⟨S_, .i32⟩
  | 84 => ⟨S3200000, .i32⟩
  | 85 => ⟨S3200000, .i1⟩
  | 86 => ⟨S_, .i32⟩
  | 87 => ⟨S3200000, .i32⟩
  | 88 => ⟨S3200000, .i32⟩
  | 89 => ⟨S3200000, .i32⟩
  | 90 => ⟨S3200000x1, .i32⟩
  | 91 => ⟨S3200000x16, .f32⟩
  | 92 => ⟨S3200000x16, .f32⟩
  | 93 => ⟨S3200000x16, .f32⟩
  | 94 => ⟨S_, .f32⟩
  | 95 => ⟨S100000x16, .f32⟩
  | 96 => ⟨S3200000x1, .i32⟩
  | 97 => ⟨S100000x16, .f32⟩
  | 98 => ⟨S1, .f32⟩
  | 99 => ⟨S_, .f32⟩
  | 100 => ⟨S100000x16, .f32⟩
  | 101 => ⟨S100000x16, .f32⟩
  | 102 => ⟨S100000x16, .f32⟩
  | 103 => ⟨S3200000x1, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000x16, .f32⟩
  | 113 => ⟨S3200000x16, .f32⟩
  | 114 => ⟨S3200000x16, .f32⟩
  | 115 => ⟨S_, .f32⟩
  | 116 => ⟨S100000x16, .f32⟩
  | 117 => ⟨S3200000x1, .i32⟩
  | 118 => ⟨S100000x16, .f32⟩
  | 119 => ⟨S1, .f32⟩
  | 120 => ⟨S_, .f32⟩
  | 121 => ⟨S100000x16, .f32⟩
  | 122 => ⟨S100000x16, .f32⟩
  | 123 => ⟨S100000x16, .f32⟩
  | 124 => ⟨S3200000x1, .f32⟩
  | 125 => ⟨S_, .i32⟩
  | 126 => ⟨S3200000, .i32⟩
  | 127 => ⟨S3200000, .i1⟩
  | _ => ⟨S100000x512, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x16, .f32⟩
  | 6 => ⟨S3200000x16, .f32⟩
  | 7 => ⟨S3200000x16, .f32⟩
  | 8 => ⟨S_, .f32⟩
  | 9 => ⟨S100000x16, .f32⟩
  | 10 => ⟨S3200000x1, .i32⟩
  | 11 => ⟨S100000x16, .f32⟩
  | 12 => ⟨S1, .f32⟩
  | 13 => ⟨S_, .f32⟩
  | 14 => ⟨S100000x16, .f32⟩
  | 15 => ⟨S100000x16, .f32⟩
  | 16 => ⟨S100000x16, .f32⟩
  | 17 => ⟨S3200000x1, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x16, .f32⟩
  | 27 => ⟨S3200000x16, .f32⟩
  | 28 => ⟨S3200000x16, .f32⟩
  | 29 => ⟨S_, .f32⟩
  | 30 => ⟨S100000x16, .f32⟩
  | 31 => ⟨S3200000x1, .i32⟩
  | 32 => ⟨S100000x16, .f32⟩
  | 33 => ⟨S1, .f32⟩
  | 34 => ⟨S_, .f32⟩
  | 35 => ⟨S100000x16, .f32⟩
  | 36 => ⟨S100000x16, .f32⟩
  | 37 => ⟨S100000x16, .f32⟩
  | 38 => ⟨S3200000x1, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000x16, .f32⟩
  | 48 => ⟨S3200000x16, .f32⟩
  | 49 => ⟨S3200000x16, .f32⟩
  | 50 => ⟨S_, .f32⟩
  | 51 => ⟨S100000x16, .f32⟩
  | 52 => ⟨S3200000x1, .i32⟩
  | 53 => ⟨S100000x16, .f32⟩
  | 54 => ⟨S1, .f32⟩
  | 55 => ⟨S_, .f32⟩
  | 56 => ⟨S100000x16, .f32⟩
  | 57 => ⟨S100000x16, .f32⟩
  | 58 => ⟨S100000x16, .f32⟩
  | 59 => ⟨S3200000x1, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x16, .f32⟩
  | 69 => ⟨S3200000x16, .f32⟩
  | 70 => ⟨S3200000x16, .f32⟩
  | 71 => ⟨S_, .f32⟩
  | 72 => ⟨S100000x16, .f32⟩
  | 73 => ⟨S3200000x1, .i32⟩
  | 74 => ⟨S100000x16, .f32⟩
  | 75 => ⟨S1, .f32⟩
  | 76 => ⟨S_, .f32⟩
  | 77 => ⟨S100000x16, .f32⟩
  | 78 => ⟨S100000x16, .f32⟩
  | 79 => ⟨S100000x16, .f32⟩
  | 80 => ⟨S3200000x1, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x16, .f32⟩
  | 90 => ⟨S3200000x16, .f32⟩
  | 91 => ⟨S3200000x16, .f32⟩
  | 92 => ⟨S_, .f32⟩
  | 93 => ⟨S100000x16, .f32⟩
  | 94 => ⟨S3200000x1, .i32⟩
  | 95 => ⟨S100000x16, .f32⟩
  | 96 => ⟨S1, .f32⟩
  | 97 => ⟨S_, .f32⟩
  | 98 => ⟨S100000x16, .f32⟩
  | 99 => ⟨S100000x16, .f32⟩
  | 100 => ⟨S100000x16, .f32⟩
  | 101 => ⟨S3200000x1, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x16, .f32⟩
  | 111 => ⟨S3200000x16, .f32⟩
  | 112 => ⟨S3200000x16, .f32⟩
  | 113 => ⟨S_, .f32⟩
  | 114 => ⟨S100000x16, .f32⟩
  | 115 => ⟨S3200000x1, .i32⟩
  | 116 => ⟨S100000x16, .f32⟩
  | 117 => ⟨S1, .f32⟩
  | 118 => ⟨S_, .f32⟩
  | 119 => ⟨S100000x16, .f32⟩
  | 120 => ⟨S100000x16, .f32⟩
  | 121 => ⟨S100000x16, .f32⟩
  | 122 => ⟨S3200000x1, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x512, .f32⟩

abbrev hbmTy0_2 (i : Nat) : BufTy := match i % 128 with
  | 0 => ⟨S3200000, .i32⟩
  | 1 => ⟨S3200000, .i32⟩
  | 2 => ⟨S3200000x1, .i32⟩
  | 3 => ⟨S3200000x16, .f32⟩
  | 4 => ⟨S3200000x16, .f32⟩
  | 5 => ⟨S3200000x16, .f32⟩
  | 6 => ⟨S_, .f32⟩
  | 7 => ⟨S100000x16, .f32⟩
  | 8 => ⟨S3200000x1, .i32⟩
  | 9 => ⟨S100000x16, .f32⟩
  | 10 => ⟨S1, .f32⟩
  | 11 => ⟨S_, .f32⟩
  | 12 => ⟨S100000x16, .f32⟩
  | 13 => ⟨S100000x16, .f32⟩
  | 14 => ⟨S100000x16, .f32⟩
  | _ => ⟨S100000x512, .f32⟩

abbrev hbmTy (i : Nat) : BufTy := match i / 128 with
  | 0 => hbmTy0_0 i
  | 1 => hbmTy0_1 i
  | 2 => hbmTy0_2 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_13 : Ref sig .tc := ⟨.hbm, 104, rfl⟩
abbrev main_v78 : Ref sig .tc := ⟨.hbm, 105, rfl⟩
abbrev main_v79 : Ref sig .tc := ⟨.hbm, 106, rfl⟩
abbrev main_c_14 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_16 : Ref sig .tc := ⟨.hbm, 125, rfl⟩
abbrev main_v96 : Ref sig .tc := ⟨.hbm, 126, rfl⟩
abbrev main_v97 : Ref sig .tc := ⟨.hbm, 127, rfl⟩
abbrev main_c_17 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_18 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_c_19 : Ref sig .tc := ⟨.hbm, 146, rfl⟩
abbrev main_v114 : Ref sig .tc := ⟨.hbm, 147, rfl⟩
abbrev main_v115 : Ref sig .tc := ⟨.hbm, 148, rfl⟩
abbrev main_c_20 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_c_22 : Ref sig .tc := ⟨.hbm, 167, rfl⟩
abbrev main_v132 : Ref sig .tc := ⟨.hbm, 168, rfl⟩
abbrev main_v133 : Ref sig .tc := ⟨.hbm, 169, rfl⟩
abbrev main_c_23 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_24 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_c_25 : Ref sig .tc := ⟨.hbm, 188, rfl⟩
abbrev main_v150 : Ref sig .tc := ⟨.hbm, 189, rfl⟩
abbrev main_v151 : Ref sig .tc := ⟨.hbm, 190, rfl⟩
abbrev main_c_26 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_27 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_c_28 : Ref sig .tc := ⟨.hbm, 209, rfl⟩
abbrev main_v168 : Ref sig .tc := ⟨.hbm, 210, rfl⟩
abbrev main_v169 : Ref sig .tc := ⟨.hbm, 211, rfl⟩
abbrev main_c_29 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_cst_30 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_c_31 : Ref sig .tc := ⟨.hbm, 230, rfl⟩
abbrev main_v186 : Ref sig .tc := ⟨.hbm, 231, rfl⟩
abbrev main_v187 : Ref sig .tc := ⟨.hbm, 232, rfl⟩
abbrev main_c_32 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_cst_33 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_c_34 : Ref sig .tc := ⟨.hbm, 251, rfl⟩
abbrev main_v204 : Ref sig .tc := ⟨.hbm, 252, rfl⟩
abbrev main_v205 : Ref sig .tc := ⟨.hbm, 253, rfl⟩
abbrev main_c_35 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_cst_36 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  slices_S11_S1_0 : S11.Slices ![0] S1
  shapeCasts_S1_S_ : S1.ShapeCasts S_
  bcast_S_S100000x16 : S_.BroadcastsInDim S100000x16 (![] : Fin 0 → Fin S100000x16.rank)
  bcast_S3200000x1_S3200000x16_0_1 : S3200000x1.BroadcastsInDim S3200000x16 (![0, 1] : Fin 2 → Fin S3200000x16.rank)
  slices_S11_S1_1 : S11.Slices ![1] S1
  slices_S11_S1_2 : S11.Slices ![2] S1
  slices_S11_S1_3 : S11.Slices ![3] S1
  slices_S11_S1_4 : S11.Slices ![4] S1
  slices_S11_S1_5 : S11.Slices ![5] S1
  slices_S11_S1_6 : S11.Slices ![6] S1
  slices_S11_S1_7 : S11.Slices ![7] S1
  slices_S11_S1_8 : S11.Slices ![8] S1
  slices_S11_S1_9 : S11.Slices ![9] S1
  slices_S11_S1_10 : S11.Slices ![10] S1
  dot_S100000x512_S512x256_S100000x256_1_0_0_1_n_n_wf : DotDims.WF S100000x512 S512x256 S100000x256 [1] [0] [0] [1] [] []
  dot_S100000x256_S256x16_S100000x16_1_0_0_1_n_n_wf : DotDims.WF S100000x256 S256x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.FrameKernel.lean ====
/-
  The frame of the program: @main is two host reshapes, one pipelined region over twenty row blocks of 5000, and the
  graph-propagation host operations after it. Every weakly fair execution terminates without a fault; after it each
  array the region stages holds what the library computes from the blocks the body left, and every other unscoped
  buffer what the later host operations make of the region's exit contents. The body at a grid point reads its five
  input blocks whole and overwrites its output block whole with one value of them, so the block it leaves is that
  value; the later host operations write result buffers of their own only, so the seven argument arrays end as launched.
-/
import proofs.«174107_j9414568312941_1_alg».proof.Proof.Gen.Kernel.Launch
import proofs.«174107_j9414568312941_1_alg».proof.Proof.Gen.Kernel.Skeleton
import proofs.«174107_j9414568312941_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes of the biases. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, in the three stretches @main is printed in. -/
abbrev tail : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 40000000 in
/-- @main is the reshapes, the region, and the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later operations touch unscoped TensorCore buffers only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! Each later operation writes its own result buffer, and every one of those sits at an index of 10 or more among
    the core's buffers of its space; the arguments, the reshaped biases and the region's result sit below 10. So a
    buffer below index 10 is written by none of them. -/

theorem keeps1 : (hostOps1 : List (HloOp τ sig (Elt F))).Forall fun op =>
    ∀ b : Ref sig .tc, b.idx.val < 10 → Proc.devRef (τ := τ) .tc b ∉ op.writes := by
  simp only [hostOps1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro b hb e; cases Proc.devRef_injective _ e; exact absurd hb (by decide))

theorem keeps1_1 : (hostOps1_1 : List (HloOp τ sig (Elt F))).Forall fun op =>
    ∀ b : Ref sig .tc, b.idx.val < 10 → Proc.devRef (τ := τ) .tc b ∉ op.writes := by
  simp only [hostOps1_1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro b hb e; cases Proc.devRef_injective _ e; exact absurd hb (by decide))

theorem keeps1_2 : (hostOps1_2 : List (HloOp τ sig (Elt F))).Forall fun op =>
    ∀ b : Ref sig .tc, b.idx.val < 10 → Proc.devRef (τ := τ) .tc b ∉ op.writes := by
  simp only [hostOps1_2, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro b hb e; cases Proc.devRef_injective _ e; exact absurd hb (by decide))

/-- A buffer below index 10 is written by no operation after the region. -/
theorem tail_keeps (b : Ref sig .tc) (hb : b.idx.val < 10) :
    ∀ ops ∈ (tail : List (List (HloOp τ sig (Elt F)))), ∀ op ∈ ops, Proc.devRef (τ := τ) .tc b ∉ op.writes := by
  intro ops hops op hop
  simp only [tail, List.mem_cons, List.mem_nil_iff, or_false] at hops
  rcases hops with rfl | rfl | rfl
  · exact (List.forall_iff_forall_mem.mp keeps1) op hop b hb
  · exact (List.forall_iff_forall_mem.mp keeps1_1) op hop b hb
  · exact (List.forall_iff_forall_mem.mp keeps1_2) op hop b hb

/-- In particular they write no array of the pipeline. -/
theorem tail_keeps_arrays : ∀ ops ∈ (tail : List (List (HloOp τ sig (Elt F)))), ∀ op ∈ ops,
    ∀ w, Proc.devRef .tc (Pipeline.arrRef spec0 w) ∉ op.writes :=
  fun ops hops op hop w => tail_keeps (Pipeline.arrRef spec0 w) ((by decide : ∀ w, (Pipeline.arrRef spec0 w).idx.val < 10) w) ops hops op hop

/-- The same over the three stretches joined. -/
theorem tail_keeps_flat (b : Ref sig .tc) (hb : b.idx.val < 10) :
    ∀ op ∈ (tail : List (List (HloOp τ sig (Elt F)))).flatten, Proc.devRef (τ := τ) .tc b ∉ op.writes := by
  intro op hop
  obtain ⟨ops, hops, hop'⟩ := List.mem_flatten.mp hop
  exact tail_keeps b hb ops hops op hop'

/-- The two reshapes before the region write the reshaped biases only (indices 7 and 8): a buffer below index 7, an
    argument, is found by the region as launched. -/
theorem V_of_lt (c : Dev nD) (b : Ref sig .tc) (hb : b.idx.val < 7) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro e; cases Proc.devRef_injective _ e; exact absurd hb (by decide))))

/-- What the later operations leave at a buffer below index 10 that is no array of the pipeline: what the region found there. -/
theorem W_of_lt (dats : (p : Fin _) → (c : Dev nD) → Dat τ (Elt F) Unit ℕ (UR sig nD τ) ℕ (cfgs p) c) (c : Dev nD)
    (b : Ref sig .tc) (hb : b.idx.val < 10) (hne : ∀ w, Pipeline.arrRef spec0 w ≠ b) :
    Pipeline.afterTail₀ cfgs dats 0 (V0 m) tail c b = V m c b := by
  unfold Pipeline.afterTail₀
  rw [StableHlo.after_of_forall_not_mem (b := Proc.devRef .tc b) _ _ (tail_keeps_flat b hb),
    Pipeline.withArrays_of_ne _ c (V0 m c) _ b hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer read or written whole -/

abbrev r0 : Rect S5000x512 := Rect.unit (s := S5000x512) ![0, 0] S5000x512.size inb_S5000x512_S5000x512_0_0
abbrev r1 : Rect S512x256 := Rect.unit (s := S512x256) ![0, 0] S512x256.size inb_S512x256_S512x256_0_0
abbrev r2 : Rect S1x256 := Rect.unit (s := S1x256) ![0, 0] S1x256.size inb_S1x256_S1x256_0_0
abbrev r3 : Rect S256x16 := Rect.unit (s := S256x16) ![0, 0] S256x16.size inb_S256x16_S256x16_0_0
abbrev r4 : Rect S1x16 := Rect.unit (s := S1x16) ![0, 0] S1x16.size inb_S1x16_S1x16_0_0
abbrev r5 : Rect S5000x16 := Rect.unit (s := S5000x16) ![0, 0] S5000x16.size inb_S5000x16_S5000x16_0_0

/-- The output block after the body, from the five input blocks: its one whole-block store over the body's value. -/
def out5 (x0 : Vec F S5000x512 .f32) (x1 : Vec F S512x256 .f32) (x2 : Vec F S1x256 .f32) (x3 : Vec F S256x16 .f32) (x4 : Vec F S1x16 .f32) :
    Vec F S5000x16 .f32 :=
  View.canon [⟨r5, k0_pay1 (View.ld x0 r0) (View.ld x1 r1) (View.ld x2 r2) (View.ld x3 r3) (View.ld x4 r4)⟩]

/-- The one store covers the block. -/
theorem cover5 (p0 : Vec F S5000x16 .f32) (y : S5000x16.Idx) :
    ∃ pc ∈ ([⟨r5, p0⟩] : List (View.Piece (Elt F) S5000x16 .f32)), y ∈ pc.1.set :=
  View.cover_of_tiled [⟨r5, p0⟩] S5000x16.size (by rfl) y

/-! ## The body's triple -/

set_option maxHeartbeats 4000000 in
/-- The body on whole staging buffers, the inputs' at contents `x0 … x4` and the output's at anything, runs to the
    continuation holding the inputs' as they were and the output's at `out5` of them. -/
theorem sound_kernel (c : Dev nD) (E : Set ℕ) (i : grid0.Coords)
    (arg1 : Memref sig .tc .vmem S5000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x16 .f32) (harg4 : arg4.IsWhole)
    (arg5 : Memref sig .tc .vmem S1x16 .f32) (harg5 : arg5.IsWhole) (arg6 : Memref sig .tc .vmem S5000x16 .f32) (harg6 : arg6.IsWhole)
    (x0 : Vec F S5000x512 .f32) (x1 : Vec F S512x256 .f32) (x2 : Vec F S1x256 .f32) (x3 : Vec F S256x16 .f32) (x4 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data on core `c`: the arrays as the region finds them; after the body at point `t` each input's buffer
    at its block and the output's at `out5` of the input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- From any memory with zero counters every weakly fair execution of @main terminates, and every final state has
    every array of the pipeline at what the library computes from the proof data and every other unscoped buffer as
    the operations after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps_arrays)
    (hmain := hmain m Variants.none) (hA := A_eq m) (hΦ := fun _ _ => rfl)

/-- The argument arrays end as launched: a staged one is an input of the pipeline, which ends at its entry contents; an
    unstaged one is written neither by the region nor by the operations after it; and the two reshapes before the
    region write none of them. -/
theorem args_kept (r : PUnit × MemSt nD τ sig (Elt F))
    (h : Pipeline.FramePost cfgs (dats m) 0 (Pipeline.afterTail₀ cfgs (dats m) 0 (V0 m) tail) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans ((((dats m 0 c).arrAt_in 0 rfl _).trans ((A_eq m c 0).trans (V_of_lt m c main_arg0 (by decide))))),
   ((h c).1 1).trans ((((dats m 0 c).arrAt_in 1 rfl _).trans ((A_eq m c 1).trans (V_of_lt m c main_arg1 (by decide))))),
   ((h c).2 main_arg2 (Pipeline.mem_restRefs_of main_arg2 (by decide) (by decide))).trans
     ((W_of_lt m (dats m) c main_arg2 (by decide) (by decide)).trans (V_of_lt m c main_arg2 (by decide))),
   ((h c).1 3).trans ((((dats m 0 c).arrAt_in 3 rfl _).trans ((A_eq m c 3).trans (V_of_lt m c main_arg3 (by decide))))),
   ((h c).2 main_arg4 (Pipeline.mem_restRefs_of main_arg4 (by decide) (by decide))).trans
     ((W_of_lt m (dats m) c main_arg4 (by decide) (by decide)).trans (V_of_lt m c main_arg4 (by decide))),
   ((h c).2 main_arg5 (Pipeline.mem_restRefs_of main_arg5 (by decide) (by decide))).trans
     ((W_of_lt m (dats m) c main_arg5 (by decide) (by decide)).trans (V_of_lt m c main_arg5 (by decide))),
   ((h c).2 main_arg6 (Pipeline.mem_restRefs_of main_arg6 (by decide) (by decide))).trans
     ((W_of_lt m (dats m) c main_arg6 (by decide) (by decide)).trans (V_of_lt m c main_arg6 (by decide)))⟩

/-- The frame: @main runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.Kernel.Frame

end
-- ==== Proof.FrameKernelIdeal.lean ====
/-
  The frame of the program: @main is two host reshapes, one pipelined region over twenty row blocks of 5000, and the
  graph-propagation host operations after it. Every weakly fair execution terminates without a fault; after it each
  array the region stages holds what the library computes from the blocks the body left, and every other unscoped
  buffer what the later host operations make of the region's exit contents. The body at a grid point reads its five
  input blocks whole and overwrites its output block whole with one value of them, so the block it leaves is that
  value; the later host operations write result buffers of their own only, so the seven argument arrays end as launched.
-/
import proofs.«174107_j9414568312941_1_alg».proof.Proof.Gen.KernelIdeal.Launch
import proofs.«174107_j9414568312941_1_alg».proof.Proof.Gen.KernelIdeal.Skeleton
import proofs.«174107_j9414568312941_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes of the biases. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, in the three stretches @main is printed in. -/
abbrev tail : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 40000000 in
/-- @main is the reshapes, the region, and the later operations: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later operations touch unscoped TensorCore buffers only. -/
theorem tail_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem tail_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-! Each later operation writes its own result buffer, and every one of those sits at an index of 10 or more among
    the core's buffers of its space; the arguments, the reshaped biases and the region's result sit below 10. So a
    buffer below index 10 is written by none of them. -/

theorem keeps1 : (hostOps1 : List (HloOp τ sig (Elt F))).Forall fun op =>
    ∀ b : Ref sig .tc, b.idx.val < 10 → Proc.devRef (τ := τ) .tc b ∉ op.writes := by
  simp only [hostOps1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro b hb e; cases Proc.devRef_injective _ e; exact absurd hb (by decide))

theorem keeps1_1 : (hostOps1_1 : List (HloOp τ sig (Elt F))).Forall fun op =>
    ∀ b : Ref sig .tc, b.idx.val < 10 → Proc.devRef (τ := τ) .tc b ∉ op.writes := by
  simp only [hostOps1_1, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro b hb e; cases Proc.devRef_injective _ e; exact absurd hb (by decide))

theorem keeps1_2 : (hostOps1_2 : List (HloOp τ sig (Elt F))).Forall fun op =>
    ∀ b : Ref sig .tc, b.idx.val < 10 → Proc.devRef (τ := τ) .tc b ∉ op.writes := by
  simp only [hostOps1_2, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals (intro b hb e; cases Proc.devRef_injective _ e; exact absurd hb (by decide))

/-- A buffer below index 10 is written by no operation after the region. -/
theorem tail_keeps (b : Ref sig .tc) (hb : b.idx.val < 10) :
    ∀ ops ∈ (tail : List (List (HloOp τ sig (Elt F)))), ∀ op ∈ ops, Proc.devRef (τ := τ) .tc b ∉ op.writes := by
  intro ops hops op hop
  simp only [tail, List.mem_cons, List.mem_nil_iff, or_false] at hops
  rcases hops with rfl | rfl | rfl
  · exact (List.forall_iff_forall_mem.mp keeps1) op hop b hb
  · exact (List.forall_iff_forall_mem.mp keeps1_1) op hop b hb
  · exact (List.forall_iff_forall_mem.mp keeps1_2) op hop b hb

/-- In particular they write no array of the pipeline. -/
theorem tail_keeps_arrays : ∀ ops ∈ (tail : List (List (HloOp τ sig (Elt F)))), ∀ op ∈ ops,
    ∀ w, Proc.devRef .tc (Pipeline.arrRef spec0 w) ∉ op.writes :=
  fun ops hops op hop w => tail_keeps (Pipeline.arrRef spec0 w) ((by decide : ∀ w, (Pipeline.arrRef spec0 w).idx.val < 10) w) ops hops op hop

/-- The same over the three stretches joined. -/
theorem tail_keeps_flat (b : Ref sig .tc) (hb : b.idx.val < 10) :
    ∀ op ∈ (tail : List (List (HloOp τ sig (Elt F)))).flatten, Proc.devRef (τ := τ) .tc b ∉ op.writes := by
  intro op hop
  obtain ⟨ops, hops, hop'⟩ := List.mem_flatten.mp hop
  exact tail_keeps b hb ops hops op hop'

/-- The two reshapes before the region write the reshaped biases only (indices 7 and 8): a buffer below index 7, an
    argument, is found by the region as launched. -/
theorem V_of_lt (c : Dev nD) (b : Ref sig .tc) (hb : b.idx.val < 7) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro e; cases Proc.devRef_injective _ e; exact absurd hb (by decide))))

/-- What the later operations leave at a buffer below index 10 that is no array of the pipeline: what the region found there. -/
theorem W_of_lt (dats : (p : Fin _) → (c : Dev nD) → Dat τ (Elt F) Unit ℕ (UR sig nD τ) ℕ (cfgs p) c) (c : Dev nD)
    (b : Ref sig .tc) (hb : b.idx.val < 10) (hne : ∀ w, Pipeline.arrRef spec0 w ≠ b) :
    Pipeline.afterTail₀ cfgs dats 0 (V0 m) tail c b = V m c b := by
  unfold Pipeline.afterTail₀
  rw [StableHlo.after_of_forall_not_mem (b := Proc.devRef .tc b) _ _ (tail_keeps_flat b hb),
    Pipeline.withArrays_of_ne _ c (V0 m c) _ b hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer read or written whole -/

abbrev r0 : Rect S5000x512 := Rect.unit (s := S5000x512) ![0, 0] S5000x512.size inb_S5000x512_S5000x512_0_0
abbrev r1 : Rect S512x256 := Rect.unit (s := S512x256) ![0, 0] S512x256.size inb_S512x256_S512x256_0_0
abbrev r2 : Rect S1x256 := Rect.unit (s := S1x256) ![0, 0] S1x256.size inb_S1x256_S1x256_0_0
abbrev r3 : Rect S256x16 := Rect.unit (s := S256x16) ![0, 0] S256x16.size inb_S256x16_S256x16_0_0
abbrev r4 : Rect S1x16 := Rect.unit (s := S1x16) ![0, 0] S1x16.size inb_S1x16_S1x16_0_0
abbrev r5 : Rect S5000x16 := Rect.unit (s := S5000x16) ![0, 0] S5000x16.size inb_S5000x16_S5000x16_0_0

/-- The output block after the body, from the five input blocks: its one whole-block store over the body's value. -/
def out5 (x0 : Vec F S5000x512 .f32) (x1 : Vec F S512x256 .f32) (x2 : Vec F S1x256 .f32) (x3 : Vec F S256x16 .f32) (x4 : Vec F S1x16 .f32) :
    Vec F S5000x16 .f32 :=
  View.canon [⟨r5, k0_pay1 (View.ld x0 r0) (View.ld x1 r1) (View.ld x2 r2) (View.ld x3 r3) (View.ld x4 r4)⟩]

/-- The one store covers the block. -/
theorem cover5 (p0 : Vec F S5000x16 .f32) (y : S5000x16.Idx) :
    ∃ pc ∈ ([⟨r5, p0⟩] : List (View.Piece (Elt F) S5000x16 .f32)), y ∈ pc.1.set :=
  View.cover_of_tiled [⟨r5, p0⟩] S5000x16.size (by rfl) y

/-! ## The body's triple -/

set_option maxHeartbeats 4000000 in
/-- The body on whole staging buffers, the inputs' at contents `x0 … x4` and the output's at anything, runs to the
    continuation holding the inputs' as they were and the output's at `out5` of them. -/
theorem sound_kernel (c : Dev nD) (E : Set ℕ) (i : grid0.Coords)
    (arg1 : Memref sig .tc .vmem S5000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x16 .f32) (harg4 : arg4.IsWhole)
    (arg5 : Memref sig .tc .vmem S1x16 .f32) (harg5 : arg5.IsWhole) (arg6 : Memref sig .tc .vmem S5000x16 .f32) (harg6 : arg6.IsWhole)
    (x0 : Vec F S5000x512 .f32) (x1 : Vec F S512x256 .f32) (x2 : Vec F S1x256 .f32) (x3 : Vec F S256x16 .f32) (x4 : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data on core `c`: the arrays as the region finds them; after the body at point `t` each input's buffer
    at its block and the output's at `out5` of the input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- From any memory with zero counters every weakly fair execution of @main terminates, and every final state has
    every array of the pipeline at what the library computes from the proof data and every other unscoped buffer as
    the operations after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := tail_sub) (hfresh := tail_fresh) (hkeep := tail_keeps_arrays)
    (hmain := hmain m Variants.none) (hA := A_eq m) (hΦ := fun _ _ => rfl)

/-- The argument arrays end as launched: a staged one is an input of the pipeline, which ends at its entry contents; an
    unstaged one is written neither by the region nor by the operations after it; and the two reshapes before the
    region write none of them. -/
theorem args_kept (r : PUnit × MemSt nD τ sig (Elt F))
    (h : Pipeline.FramePost cfgs (dats m) 0 (Pipeline.afterTail₀ cfgs (dats m) 0 (V0 m) tail) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans ((((dats m 0 c).arrAt_in 0 rfl _).trans ((A_eq m c 0).trans (V_of_lt m c main_arg0 (by decide))))),
   ((h c).1 1).trans ((((dats m 0 c).arrAt_in 1 rfl _).trans ((A_eq m c 1).trans (V_of_lt m c main_arg1 (by decide))))),
   ((h c).2 main_arg2 (Pipeline.mem_restRefs_of main_arg2 (by decide) (by decide))).trans
     ((W_of_lt m (dats m) c main_arg2 (by decide) (by decide)).trans (V_of_lt m c main_arg2 (by decide))),
   ((h c).1 3).trans ((((dats m 0 c).arrAt_in 3 rfl _).trans ((A_eq m c 3).trans (V_of_lt m c main_arg3 (by decide))))),
   ((h c).2 main_arg4 (Pipeline.mem_restRefs_of main_arg4 (by decide) (by decide))).trans
     ((W_of_lt m (dats m) c main_arg4 (by decide) (by decide)).trans (V_of_lt m c main_arg4 (by decide))),
   ((h c).2 main_arg5 (Pipeline.mem_restRefs_of main_arg5 (by decide) (by decide))).trans
     ((W_of_lt m (dats m) c main_arg5 (by decide) (by decide)).trans (V_of_lt m c main_arg5 (by decide))),
   ((h c).2 main_arg6 (Pipeline.mem_restRefs_of main_arg6 (by decide) (by decide))).trans
     ((W_of_lt m (dats m) c main_arg6 (by decide) (by decide)).trans (V_of_lt m c main_arg6 (by decide)))⟩

/-- The frame: @main runs to the end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.KernelIdeal.Frame

end
-- ==== Proof.Mlp.lean ====
/-
  The two-layer perceptron, index by index on the extended reals.

  A row of 512 features goes through a 512 x 256 layer with bias and a rectifier, then through a 256 x 16 layer with
  bias:  out q = (sum over k of max (sum over l of x l * W1 (l, k) + b1 k) 0 * W2 (k, q)) + b2 q.
  The rectifier's zero is kept as the float word both programs print. No program is imported.
-/
import Idealize.ShloMosaic.PureOps.Ideal.Laws
import Idealize.ShloMosaic.Lib.ValueIdx

noncomputable section

namespace Cert.Mlp

open Idealize.ShloMosaic Idealize.ShloMosaic.ValueIdx

/-- One row's output at column `q`. -/
def rowOut (xr : Fin 512 → EReal) (W1 : (⟨2, ![512, 256]⟩ : Shape).Idx → EReal) (b1 : Fin 256 → EReal)
    (W2 : (⟨2, ![256, 16]⟩ : Shape).Idx → EReal) (b2 : Fin 16 → EReal) (q : Fin 16) : EReal :=
  (∑ k : Fin 256, max ((∑ l : Fin 512, xr l * W1 (ix2 l k)) + b1 k) (Ideal.ofBits .f32 0x00000000#32) * W2 (ix2 k q)) + b2 q

/-- The perceptron over all 100000 rows: entry (i, j) is row i's output at column j. -/
def mlp (x : (⟨2, ![100000, 512]⟩ : Shape).Idx → EReal) (W1 : (⟨2, ![512, 256]⟩ : Shape).Idx → EReal) (b1 : Fin 256 → EReal)
    (W2 : (⟨2, ![256, 16]⟩ : Shape).Idx → EReal) (b2 : Fin 16 → EReal) : (⟨2, ![100000, 16]⟩ : Shape).Idx → EReal :=
  fun j => rowOut (fun l => x (ix2 ⟨(j 0).val, idx2_lt0 j⟩ l)) W1 b1 W2 b2 ⟨(j 1).val, idx2_lt1 j⟩

theorem mlp_apply (x : (⟨2, ![100000, 512]⟩ : Shape).Idx → EReal) (W1 : (⟨2, ![512, 256]⟩ : Shape).Idx → EReal) (b1 : Fin 256 → EReal)
    (W2 : (⟨2, ![256, 16]⟩ : Shape).Idx → EReal) (b2 : Fin 16 → EReal) (p : Fin 100000) (q : Fin 16) :
    mlp x W1 b1 W2 b2 (ix2 p q) = rowOut (fun l => x (ix2 p l)) W1 b1 W2 b2 q := rfl

end Cert.Mlp

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.KernelValue.lean ====
/-
  What the region leaves in its result array, at the ideal instance: the two-layer perceptron of the arguments.

  The body's value at entry (p, q) of a 5000-row block is the perceptron's output for the block's row p at column q:
  both matrix products into a zero accumulator are plain sums over the contracted axis, the changes of float format
  are identities, each bias row [1, n] is broadcast down the rows, and the rectifier is a maximum with the zero word.
  Grid point t stages rows 5000 t … 5000 t + 4999 of x and of the result and the whole of each weight and bias, so
  what point t writes back is block t of the perceptron of the whole arrays; the twenty blocks tile the 100000 rows,
  so the array ends holding the perceptron everywhere. The two bias rows the region reads are reshapes of the bias
  vectors, read back at (0, k) as the vector's entry k.
-/
import proofs.«174107_j9414568312941_1_alg».proof.Proof.FrameKernelIdeal
import proofs.«174107_j9414568312941_1_alg».proof.Proof.Mlp
import proofs.«174107_j9414568312941_1_alg».proof.Proof.LibMatmulPlain
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

/-! ## The body's value at an entry -/

/-- A [1, n] row broadcast down the rows of an [r, n] block, read at (p, k): the row's entry k. -/
theorem row256_apply (x2 : Vec Ideal S1x256 .f32) (p : Fin 5000) (k : Fin 256) :
    broadcastTo S5000x256 (shapeCast S1x256 x2 shapeCasts_S1x256_S1x256) broadcasts_S1x256_S5000x256 (ix2 p k) = x2 (ix2 0 k) := by
  rw [shapeCast_self]
  exact broadcastTo_apply _ _ _ (ix2 0 k) (fun a => by match a with | ⟨0, _⟩ => rfl | ⟨1, _⟩ => rfl)

theorem row16_apply (x4 : Vec Ideal S1x16 .f32) (p : Fin 5000) (q : Fin 16) :
    broadcastTo S5000x16 (shapeCast S1x16 x4 shapeCasts_S1x16_S1x16) broadcasts_S1x16_S5000x16 (ix2 p q) = x4 (ix2 0 q) := by
  rw [shapeCast_self]
  exact broadcastTo_apply _ _ _ (ix2 0 q) (fun a => by match a with | ⟨0, _⟩ => rfl | ⟨1, _⟩ => rfl)

/-- The body's value at (p, q) is the perceptron's output for row p of the x block at column q. -/
theorem pay_apply (x0 : Vec Ideal S5000x512 .f32) (x1 : Vec Ideal S512x256 .f32) (x2 : Vec Ideal S1x256 .f32)
    (x3 : Vec Ideal S256x16 .f32) (x4 : Vec Ideal S1x16 .f32) (p : Fin 5000) (q : Fin 16) :
    k0_pay1 (F := Ideal) x0 x1 x2 x3 x4 (ix2 p q)
      = Cert.Mlp.rowOut (fun l => x0 (ix2 p l)) x1 (fun k => x2 (ix2 0 k)) x3 (fun j => x4 (ix2 0 j)) q := by
  unfold k0_pay1 Cert.Mlp.rowOut
  dsimp only
  refine (addf_apply _ _ _).trans ?_
  refine congrArg₂ (· + ·) ?_ (row16_apply x4 p q)
  refine (Cert.LibMatmulPlain.matmul_zero_apply _ rfl rfl rfl rfl rfl rfl _ _ p q).trans ?_
  refine Finset.sum_congr rfl fun k _ => ?_
  refine congrArg₂ (· * ·) ?_ rfl
  refine (truncf_apply (ψ := .bf16) _ bitsLt_bf16_f32 _).trans ?_
  refine (maximumf_apply _ _ _).trans ?_
  refine congrArg₂ max ?_ rfl
  refine (addf_apply _ _ _).trans ?_
  exact congrArg₂ (· + ·) (Cert.LibMatmulPlain.matmul_zero_apply _ rfl rfl rfl rfl rfl rfl _ _ p k) (row256_apply x2 p k)

/-- The same at any index of the block, by its two coordinates. -/
theorem pay_at (x0 : Vec Ideal S5000x512 .f32) (x1 : Vec Ideal S512x256 .f32) (x2 : Vec Ideal S1x256 .f32)
    (x3 : Vec Ideal S256x16 .f32) (x4 : Vec Ideal S1x16 .f32) (y : S5000x16.Idx) :
    k0_pay1 (F := Ideal) x0 x1 x2 x3 x4 y
      = Cert.Mlp.rowOut (fun l => x0 (ix2 ⟨(y 0).val, idx2_lt0 y⟩ l)) x1 (fun k => x2 (ix2 0 k)) x3 (fun j => x4 (ix2 0 j)) ⟨(y 1).val, idx2_lt1 y⟩ := by
  obtain ⟨p, q, rfl⟩ : ∃ (p : Fin 5000) (q : Fin 16), y = ix2 p q := ⟨y 0, y 1, eq_ix2 y⟩
  exact pay_apply x0 x1 x2 x3 x4 p q

theorem rowOut_congr {xr xr' : Fin 512 → EReal} {W1 W1' : (⟨2, ![512, 256]⟩ : Shape).Idx → EReal} {b1 b1' : Fin 256 → EReal}
    {W2 W2' : (⟨2, ![256, 16]⟩ : Shape).Idx → EReal} {b2 b2' : Fin 16 → EReal} {q q' : Fin 16}
    (h0 : xr = xr') (h1 : W1 = W1') (h2 : b1 = b1') (h3 : W2 = W2') (h4 : b2 = b2') (h5 : q = q') :
    Cert.Mlp.rowOut xr W1 b1 W2 b2 q = Cert.Mlp.rowOut xr' W1' b1' W2' b2' q' := by
  subst h0 h1 h2 h3 h4 h5; rfl

/-! ## From blocks to the array -/

variable (m : (ℓ : Loc nD τ sig) → Buf (Elt Ideal) ℓ)

theorem hz : (![0, 0] : Fin 2 → Nat) = fun _ => 0 := funext fun a => by fin_cases a <;> rfl

/-- The perceptron of the arrays the region stages: the bias rows are [1, n] arrays, read at row 0. -/
def G (X : Vec Ideal S100000x512 .f32) (W1 : Vec Ideal S512x256 .f32) (B1 : Vec Ideal S1x256 .f32) (W2 : Vec Ideal S256x16 .f32)
    (B2 : Vec Ideal S1x16 .f32) : Vec Ideal S100000x16 .f32 :=
  Cert.Mlp.mlp X W1 (fun k => B1 (ix2 0 k)) W2 (fun j => B2 (ix2 0 j))

/-- The printed index maps, decided over the twenty grid points: x and the result move together down the rows, one
    block of 5000 per point; every other operand stays at block (0, 0). -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the perceptron of the arrays as the region finds them. -/
theorem flushed5_eq (c : Dev nD) (t : Fin cfg0.N) :
    (dats (F := Ideal) m 0 c).flushed 5 t = ((cfg0.win 5).blk t).view.read (Elt Ideal)
      (G (V m c main_arg0) (V m c main_arg1) (V m c main_v0) (V m c main_arg3) (V m c main_v1)) := by
  show (cfg0.win 5).cut (grid0.coords t) ((dats m 0 c).after 5 t) = _
  rw [after5]
  unfold out5
  rw [View.canon_unit_zero hz]
  simp only [View.ld_unit_zero (S := S5000x512) hz, View.ld_unit_zero (S := S512x256) hz, View.ld_unit_zero (S := S1x256) hz,
    View.ld_unit_zero (S := S256x16) hz, View.ld_unit_zero (S := S1x16) hz]
  obtain ⟨e00, e01, e10, e11, e20, e21, e30, e31, e40, e41, e50, e51⟩ := idx_facts t
  funext j
  show k0_pay1 (F := Ideal) (iblk m c 0 t) (iblk m c 1 t) (iblk m c 2 t) (iblk m c 3 t) (iblk m c 4 t) j
    = G (V m c main_arg0) (V m c main_arg1) (V m c main_v0) (V m c main_arg3) (V m c main_v1) (((cfg0.win 5).blk t).view.emb j)
  refine (pay_at (iblk m c 0 t) (iblk m c 1 t) (iblk m c 2 t) (iblk m c 3 t) (iblk m c 4 t) j).trans ?_
  unfold G Cert.Mlp.mlp
  refine rowOut_congr (funext fun l => ?_) (funext fun y => ?_) (funext fun k => ?_) (funext fun y => ?_) (funext fun q => ?_) (Fin.ext ?_)
  · show V m c main_arg0 (((cfg0.win 0).blk t).view.emb (ix2 ⟨(j 0).val, _⟩ l)) = V m c main_arg0 (ix2 ⟨((((cfg0.win 5).blk t).view.emb j) 0).val, _⟩ l)
    refine congrArg (V m c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 512 + 1 * l.val = l.val; omega
  · show V m c main_arg1 (((cfg0.win 1).blk t).view.emb y) = V m c main_arg1 y
    refine congrArg (V m c main_arg1) (funext fun a => Fin.ext ?_)
    match a with
    | ⟨0, _⟩ => show win0_1.index t (0 : Fin 2) * 512 + 1 * (y 0).val = (y 0).val; omega
    | ⟨1, _⟩ => show win0_1.index t (1 : Fin 2) * 256 + 1 * (y 1).val = (y 1).val; omega
  · show V m c main_v0 (((cfg0.win 2).blk t).view.emb (ix2 0 k)) = V m c main_v0 (ix2 0 k)
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 256 + 1 * k.val = k.val; omega
  · show V m c main_arg3 (((cfg0.win 3).blk t).view.emb y) = V m c main_arg3 y
    refine congrArg (V m c main_arg3) (funext fun a => Fin.ext ?_)
    match a with
    | ⟨0, _⟩ => show win0_3.index t (0 : Fin 2) * 256 + 1 * (y 0).val = (y 0).val; omega
    | ⟨1, _⟩ => show win0_3.index t (1 : Fin 2) * 16 + 1 * (y 1).val = (y 1).val; omega
  · show V m c main_v1 (((cfg0.win 4).blk t).view.emb (ix2 0 q)) = V m c main_v1 (ix2 0 q)
    refine congrArg (V m c main_v1) (funext fun a => Fin.ext ?_)
    match a with
    | ⟨0, _⟩ => show win0_4.index t (0 : Fin 2) * 1 + 1 * 0 = 0; omega
    | ⟨1, _⟩ => show win0_4.index t (1 : Fin 2) * 16 + 1 * q.val = q.val; omega
  · show (j 1).val = win0_5.index t (1 : Fin 2) * 16 + 1 * (j 1).val
    omega

/-- An index of the result array is in point `t`'s block iff each coordinate is in the block's range on its axis. -/
theorem mem_blk5 (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v2).slice (win0_5.rect t)).set ↔ _
  rw [View.set_slice_whole, Rect.mem_set_unit]
  exact Iff.rfl

/-- Row r of the result is written back by point r / 5000: the twenty blocks tile the array. -/
theorem cover (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  have hN : (i 0).val / 5000 < cfg0.N := by show _ < grid0.N; rw [N_0]; omega
  refine ⟨⟨(i 0).val / 5000, hN⟩, flush0_5 _, ?_⟩
  obtain ⟨-, -, -, -, -, -, -, -, -, -, e50, e51⟩ := idx_facts ⟨(i 0).val / 5000, hN⟩
  have e50' : win0_5.index ⟨(i 0).val / 5000, hN⟩ (0 : Fin 2) = (i 0).val / 5000 := e50
  rw [mem_blk5]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50']; omega
  | ⟨1, _⟩ =>
    show win0_5.index ⟨(i 0).val / 5000, hN⟩ (1 : Fin 2) * 16 ≤ (i 1).val ∧ (i 1).val < win0_5.index ⟨(i 0).val / 5000, hN⟩ (1 : Fin 2) * 16 + 16
    rw [e51]; omega

/-- The result array after the region: the perceptron of the arrays as the region finds them. -/
theorem final5 (c : Dev nD) : (dats (F := Ideal) m 0 c).arrAt 5 cfg0.N
    = G (V m c main_arg0) (V m c main_arg1) (V m c main_v0) (V m c main_arg3) (V m c main_v1) :=
  (dats m 0 c).arrAt_eq_of_cover 5 _ (fun t _ => flushed5_eq m c t) cover

/-! ## The reshaped biases -/

/-- A vector recast as a one-row matrix, read at (0, k), is the vector's entry k. -/
theorem row_of_vec {n : Nat} (v : (⟨1, ![n]⟩ : Shape).Idx → EReal) (h : (⟨1, ![n]⟩ : Shape).ShapeCasts ⟨2, ![1, n]⟩) (k : Fin n) :
    shapeCast (⟨2, ![1, n]⟩ : Shape) v h (ix2 0 k) = v (ix1 k) := by
  refine (shapeCast_addUnit_apply ![n] v h (ix2 0 k)).trans (congrArg v (funext fun a => ?_))
  match a with
  | ⟨0, _⟩ => rfl

theorem V_v0 (c : Dev nD) (k : Fin 256) : V m c main_v0 (ix2 0 k) = m ((c : Thread nD τ).loc main_arg2) (ix1 k) := by
  have e : (V m c main_v0 : S1x256.Idx → EReal) = shapeCast S1x256 (m ((c : Thread nD τ).loc main_arg2)) shapeCasts_S256_S1x256 := by
    show StableHlo.after hostOps0 (fun b => m (c, b)) (Proc.devRef .tc main_v0) = _
    after_results; rfl
  rw [e]; exact row_of_vec _ _ k

theorem V_v1 (c : Dev nD) (q : Fin 16) : V m c main_v1 (ix2 0 q) = m ((c : Thread nD τ).loc main_arg4) (ix1 q) := by
  have e : (V m c main_v1 : S1x16.Idx → EReal) = shapeCast S1x16 (m ((c : Thread nD τ).loc main_arg4)) shapeCasts_S16_S1x16 := by
    show StableHlo.after hostOps0 (fun b => m (c, b)) (Proc.devRef .tc main_v1) = _
    after_results; rfl
  rw [e]; exact row_of_vec _ _ q

/-- The result array after the region is the perceptron of the argument arrays as launched. -/
theorem final (c : Dev nD) : (dats (F := Ideal) m 0 c).arrAt 5 cfg0.N
    = Cert.Mlp.mlp (m ((c : Thread nD τ).loc main_arg0)) (m ((c : Thread nD τ).loc main_arg1)) (fun k => m ((c : Thread nD τ).loc main_arg2) (ix1 k))
        (m ((c : Thread nD τ).loc main_arg3)) (fun q => m ((c : Thread nD τ).loc main_arg4) (ix1 q)) := by
  rw [final5]
  unfold G
  rw [V_of_lt m c main_arg0 (by decide), V_of_lt m c main_arg1 (by decide), V_of_lt m c main_arg3 (by decide)]
  have e0 : (fun k : Fin 256 => V m c main_v0 (ix2 0 k)) = fun k => m ((c : Thread nD τ).loc main_arg2) (ix1 k) := funext fun k => V_v0 m c k
  have e1 : (fun q : Fin 16 => V m c main_v1 (ix2 0 q)) = fun q => m ((c : Thread nD τ).loc main_arg4) (ix1 q) := funext fun q => V_v1 m c q
  exact congrArg₂ (fun b1 b2 => Cert.Mlp.mlp (m ((c : Thread nD τ).loc main_arg0)) (m ((c : Thread nD τ).loc main_arg1)) b1 (m ((c : Thread nD τ).loc main_arg3)) b2) e0 e1

end Cert.KernelIdeal.KValue

end
-- ==== Proof.LibDotPlain.lean ====
/-
  A host matrix product read at an entry, on the extended reals.

  For the plain dimension numbers (contract the left operand's axis 1 with the right operand's axis 0, no batch
  axes: an M x K matrix times a K x N matrix), the entry (p, q) of the product is the sum over k of
  left (p, k) times right (k, q), whatever precision and schedule the operation names.  No program is imported:
  the dimension record is a variable, constrained only by its six lists.
-/
import Idealize.ShloMosaic.PureOps.Ideal.Laws
import Idealize.ShloMosaic.Lib.ValueIdx

noncomputable section

namespace Cert.LibDotPlain

open Idealize.ShloMosaic Idealize.ShloMosaic.ValueIdx

/-- Entry (p, q) of an M x K by K x N host product is the sum over the contracted axis. -/
theorem dotGeneral_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (prec : Option ContractPrecision)
    (l : FVec Ideal ⟨2, ![M, K]⟩ φ₁) (r : FVec Ideal ⟨2, ![K, N]⟩ φ₂) (p : Fin M) (q : Fin N) :
    Host.dotGeneral D prec l r (ix2 p q) = ∑ k : Fin K, l (ix2 p k) * r (ix2 k q) := by
  obtain ⟨lc, rc, ln, rn, lb, rb, wf⟩ := D
  dsimp only at h1 h2 h3 h4 h5 h6
  subst h1 h2 h3 h4 h5 h6
  refine (Ideal.dotGeneral_apply _ prec _ l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibDotPlain

end
-- ==== Proof.LibTypedRef.lean ====
/-
  A host operation inside a module-local function is stated at the tensor value's own type and
  carried to and from its buffer's type along the equation between the two.  When one operation's
  result is the next one's operand the two carriers meet, and they cancel: going to the buffer's type
  and back is the identity.  Rewriting with this fact clears a composed host term of every
  intermediate carrier, leaving only those at the program's arguments and at the final result,
  which are identities by computation.
-/
import Idealize.ShloMosaic.Lib.StableHlo

namespace Cert.LibTypedRef

open Idealize.ShloMosaic Idealize.ShloMosaic.StableHlo

/-- Contents carried to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.LibTypedRef
-- ==== Proof.RefValue.lean ====
/-
  The reference's first eleven operations compute the two-layer perceptron: two matrix products, each followed by its
  bias broadcast down the rows, with a maximum against zero in between. Read at entry (p, q) on the extended reals:
  each product is the plain sum over its contracted axis, a bias vector broadcast to a row and then down the rows is the
  vector's entry at the column, and the zero is the zero word at every entry. Every operation of the reference writes
  a result buffer of its own (index 7 or more), so the seven argument arrays are never written.
-/
import proofs.«174107_j9414568312941_1_alg».proof.Proof.RefOps
import proofs.«174107_j9414568312941_1_alg».proof.Proof.Mlp
import proofs.«174107_j9414568312941_1_alg».proof.Proof.LibDotPlain
import proofs.«174107_j9414568312941_1_alg».proof.Proof.LibTypedRef
import Idealize.ShloMosaic.Lib.Pipeline.Value
import Idealize.ShloMosaic.Lib.ValueIdx
import Idealize.ShloMosaic.PureOps.Ideal.Laws

set_option maxRecDepth 16384

noncomputable section

namespace Cert.ReferenceIdeal.RValue

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

/-! ## The perceptron as the reference computes it -/

/-- The eleven operations' composed term. -/
def mlpTerm (X : FVec Ideal S100000x512 .f32) (W1 : FVec Ideal S512x256 .f32) (b1 : FVec Ideal S256 .f32) (W2 : FVec Ideal S256x16 .f32)
    (b2 : FVec Ideal S16 .f32) : FVec Ideal S100000x16 .f32 :=
  addf (φ := .f32) (Host.dotGeneral (φ₁ := .f32) (φ₂ := .f32) dot_S100000x256_S256x16_S100000x16_1_0_0_1_n_n none
      (maximumf (φ := .f32)
        (addf (φ := .f32) (Host.dotGeneral (φ₁ := .f32) (φ₂ := .f32) dot_S100000x512_S512x256_S100000x256_1_0_0_1_n_n none X W1)
          (broadcastInDim S100000x256 ![0, 1] bcast_S1x256_S100000x256_0_1 (broadcastInDim S1x256 ![1] bcast_S256_S1x256_1 b1)))
        (broadcastInDim S100000x256 ![] bcast_S_S100000x256 (constant (F := Ideal) S_ .f32 0x00000000#32)))
      W2)
    (broadcastInDim S100000x16 ![0, 1] bcast_S1x16_S100000x16_0_1 (broadcastInDim S1x16 ![1] bcast_S16_S1x16_1 b2))

/-- A bias vector made a row and broadcast down 100000 rows, read at (p, k): the vector's entry k. -/
theorem bias256 (b1 : FVec Ideal S256 .f32) (p : Fin 100000) (k : Fin 256) :
    broadcastInDim S100000x256 ![0, 1] bcast_S1x256_S100000x256_0_1 (broadcastInDim S1x256 ![1] bcast_S256_S1x256_1 b1) (ix2 p k) = b1 (ix1 k) := by
  refine (broadcastInDim_apply _ _ _ (ix2 p k) (ix2 0 k) (fun a => by match a with | ⟨0, _⟩ => rfl | ⟨1, _⟩ => rfl)).trans ?_
  exact broadcastInDim_apply _ _ _ (ix2 0 k) (ix1 k) (fun a => by match a with | ⟨0, _⟩ => rfl)

theorem bias16 (b2 : FVec Ideal S16 .f32) (p : Fin 100000) (q : Fin 16) :
    broadcastInDim S100000x16 ![0, 1] bcast_S1x16_S100000x16_0_1 (broadcastInDim S1x16 ![1] bcast_S16_S1x16_1 b2) (ix2 p q) = b2 (ix1 q) := by
  refine (broadcastInDim_apply _ _ _ (ix2 p q) (ix2 0 q) (fun a => by match a with | ⟨0, _⟩ => rfl | ⟨1, _⟩ => rfl)).trans ?_
  exact broadcastInDim_apply _ _ _ (ix2 0 q) (ix1 q) (fun a => by match a with | ⟨0, _⟩ => rfl)

/-- The composed term is the perceptron, entry by entry. -/
theorem mlpTerm_eq (X : FVec Ideal S100000x512 .f32) (W1 : FVec Ideal S512x256 .f32) (b1 : FVec Ideal S256 .f32) (W2 : FVec Ideal S256x16 .f32)
    (b2 : FVec Ideal S16 .f32) :
    mlpTerm X W1 b1 W2 b2 = Cert.Mlp.mlp X W1 (fun k => b1 (ix1 k)) W2 (fun q => b2 (ix1 q)) := by
  funext j
  obtain ⟨p, q, rfl⟩ : ∃ (p : Fin 100000) (q : Fin 16), j = ix2 p q := ⟨j 0, j 1, eq_ix2 j⟩
  refine Eq.trans ?_ (Cert.Mlp.mlp_apply X W1 (fun k => b1 (ix1 k)) W2 (fun q => b2 (ix1 q)) p q).symm
  unfold mlpTerm Cert.Mlp.rowOut
  refine (addf_apply _ _ _).trans ?_
  refine congrArg₂ (· + ·) ?_ (bias16 b2 p q)
  refine (Cert.LibDotPlain.dotGeneral_apply _ rfl rfl rfl rfl rfl rfl none _ _ p q).trans ?_
  refine Finset.sum_congr rfl fun k _ => ?_
  refine congrArg₂ (· * ·) ?_ rfl
  refine (maximumf_apply _ _ _).trans ?_
  refine congrArg₂ max ?_ rfl
  refine (addf_apply _ _ _).trans ?_
  exact congrArg₂ (· + ·) (Cert.LibDotPlain.dotGeneral_apply _ rfl rfl rfl rfl rfl rfl none _ _ p k) (bias256 b1 p k)

/-! ## The eleven operations read back -/

set_option maxHeartbeats 4000000 in
/-- After the first eleven operations the perceptron's buffer holds the composed term of the five arguments' contents. -/
theorem mlp_read (W : Valuation τ sig (Elt Ideal)) :
    (after opsMlp W (Proc.devRef .tc main_v8) : S100000x16.Idx → EReal)
      = mlpTerm (W (Proc.devRef .tc main_arg0)) (W (Proc.devRef .tc main_arg1)) (W (Proc.devRef .tc main_arg2))
          (W (Proc.devRef .tc main_arg3)) (W (Proc.devRef .tc main_arg4)) := by
  after_results_simp
  simp only [Cert.LibTypedRef.ofBuf_toBuf]
  rfl

/-! ## No operation writes an argument -/

variable {F : FTy → Type} [FloatOps F]

theorem keepsMlp : (opsMlp : List (HloOp τ sig (Elt F))).Forall fun op =>
    ∀ b : Ref sig .tc, b.idx.val < 7 → Proc.devRef (τ := τ) .tc b ∉ op.writes := by
  simp only [opsMlp, List.Forall, nullary_writes, unary_writes, binary_writes, ternary_writes,
    quaternary_writes, reshape_writes, binaryIndexed_writes, Finset.mem_singleton]
  repeat' apply And.intro
  all_goals (intro b hb e; cases Proc.devRef_injective _ e; exact absurd hb (by decide))

set_option maxHeartbeats 40000000 in
theorem keepsTail : (opsTail : List (HloOp τ sig (Elt F))).Forall fun op =>
    ∀ b : Ref sig .tc, b.idx.val < 7 → Proc.devRef (τ := τ) .tc b ∉ op.writes := by
  simp only [opsTail, List.Forall, nullary_writes, unary_writes, binary_writes, ternary_writes,
    quaternary_writes, reshape_writes, binaryIndexed_writes, Finset.mem_singleton]
  repeat' apply And.intro
  all_goals (intro b hb e; cases Proc.devRef_injective _ e; exact absurd hb (by decide))

/-- A buffer below index 7, an argument, holds after the first eleven operations what it held before. -/
theorem mlp_kept (W : Valuation τ sig (Elt F)) (b : Ref sig .tc) (hb : b.idx.val < 7) :
    after opsMlp W (Proc.devRef .tc b) = W (Proc.devRef .tc b) :=
  after_of_forall_not_mem _ W fun op hop => List.forall_iff_forall_mem.mp keepsMlp op hop b hb

/-- And after all of them. -/
theorem arg_kept (W : Valuation τ sig (Elt F)) (b : Ref sig .tc) (hb : b.idx.val < 7) :
    after ops W (Proc.devRef .tc b) = W (Proc.devRef .tc b) :=
  after_of_forall_not_mem _ W fun op hop => (List.mem_append.mp hop).elim
    (fun h => List.forall_iff_forall_mem.mp keepsMlp op h b hb) (fun h => List.forall_iff_forall_mem.mp keepsTail op h b hb)

end Cert.ReferenceIdeal.RValue

end
-- ==== Proof.Tails.lean ====
/-
  The graph propagation is the same host computation in both programs: from the edge list, the degree of every node by
  a scatter-add of ones, its inverse square root where positive, the edge weight norm = d(row) * d(col); then
  out = w0 * h and ten hops  H <- scatter-add over col of norm * H[row],  out <- out + wk * H.  The two programs print it
  operation for operation, over buffers of their own. Read back over ANY contents of the buffers the propagation starts
  from, its result is one term of three of them: the perceptron's output h, the hop weights and the edge list. So when
  those three agree between the two programs, so do the results; the term itself is never opened.
-/
import proofs.«174107_j9414568312941_1_alg».proof.Proof.Gen.KernelIdeal.Launch
import proofs.«174107_j9414568312941_1_alg».proof.Proof.RefOps
import proofs.«174107_j9414568312941_1_alg».proof.Proof.LibTypedRef
import Idealize.ShloMosaic.Lib.StableHlo.Run
import Idealize.ShloMosaic.PureOps.Ideal

set_option maxRecDepth 65536

noncomputable section

namespace Cert.Tails

open Idealize.ShloMosaic Idealize.ShloMosaic.TcCoe Idealize.SL.Sem Idealize.ShloMosaic.StableHlo

set_option maxHeartbeats 400000000 in
/-- The kernel program's 253 operations after the region and the reference's 253 operations after its perceptron end
    with equal results, from any two valuations that agree on the perceptron's output, the hop weights and the edge list. -/
theorem tails_agree (WK : Valuation Cert.KernelIdeal.τ Cert.KernelIdeal.sig (Elt Ideal))
    (WR : Valuation Cert.ReferenceIdeal.τ Cert.ReferenceIdeal.sig (Elt Ideal))
    (hh : (WK (Proc.devRef .tc Cert.KernelIdeal.main_v2) : Cert.KernelIdeal.S100000x16.Idx → EReal) = WR (Proc.devRef .tc Cert.ReferenceIdeal.main_v8))
    (hw : (WK (Proc.devRef .tc Cert.KernelIdeal.main_arg5) : Cert.KernelIdeal.S11.Idx → EReal) = WR (Proc.devRef .tc Cert.ReferenceIdeal.main_arg5))
    (he : (WK (Proc.devRef .tc Cert.KernelIdeal.main_arg6) : Cert.KernelIdeal.S2x3200000.Idx → BitVec 32) = WR (Proc.devRef .tc Cert.ReferenceIdeal.main_arg6)) :
    (after (Cert.KernelIdeal.Gen.hostOps1 (F := Ideal) ++ (Cert.KernelIdeal.Gen.hostOps1_1 (F := Ideal) ++ Cert.KernelIdeal.Gen.hostOps1_2 (F := Ideal))) WK
        (Proc.devRef .tc Cert.KernelIdeal.main_v214) : Cert.KernelIdeal.S100000x16.Idx → EReal)
      = after (Cert.ReferenceIdeal.RefRun.opsTail (F := Ideal)) WR (Proc.devRef .tc Cert.ReferenceIdeal.main_v220) := by
  simp only [Cert.KernelIdeal.Gen.hostOps1, Cert.KernelIdeal.Gen.hostOps1_1, Cert.KernelIdeal.Gen.hostOps1_2, List.cons_append, List.nil_append]
  after_results_simp
  simp only [Cert.LibTypedRef.ofBuf_toBuf]
  rw [hh, hw, he]
  rfl

end Cert.Tails

end
-- ==== Proof.lean ====
/-
  The certificate: a two-layer perceptron computed by one pipelined region over twenty blocks of 5000 rows, followed
  by ten hops of degree-normalised graph propagation on the host, against the same computation written with two
  whole matrix products.

  Frames: the kernel program (at both instances) runs its two bias reshapes, the region and the 253 later host
  operations without a fault, and no argument array is written; the reference is a straight line of 264 host
  operations, each writing a buffer of its own.
  Values: at the ideal instance the region leaves the perceptron of the arguments in its result array (the bf16
  changes of format are identities, a product into a zero accumulator is the plain sum), and the reference's first
  eleven operations compute the same perceptron; the propagation after it is the same term of the perceptron's output,
  the hop weights and the edge list in both programs, so the results agree. The ideal pass rewrote nothing, so the
  idealization claim has no conjunct.
-/
import proofs.«174107_j9414568312941_1_alg».proof.Defs
import proofs.«174107_j9414568312941_1_alg».proof.Proof.Gen.Kernel
import proofs.«174107_j9414568312941_1_alg».proof.Proof.Gen.KernelIdeal
import proofs.«174107_j9414568312941_1_alg».proof.Proof.Gen.ReferenceIdeal
import proofs.«174107_j9414568312941_1_alg».proof.Proof.Gen.Pre_finite_inputs
import proofs.«174107_j9414568312941_1_alg».proof.Proof.FrameKernel
import proofs.«174107_j9414568312941_1_alg».proof.Proof.FrameKernelIdeal
import proofs.«174107_j9414568312941_1_alg».proof.Proof.KernelValue
import proofs.«174107_j9414568312941_1_alg».proof.Proof.RefOps
import proofs.«174107_j9414568312941_1_alg».proof.Proof.RefValue
import proofs.«174107_j9414568312941_1_alg».proof.Proof.Tails
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.StableHlo Idealize.ShloMosaic.ValueIdx

theorem frame_k : Cert.frame_Kernel := fun m ρ _ => Cert.Kernel.Frame.frame m ρ

theorem frame_ki : Cert.frame_KernelIdeal := fun m ρ _ => Cert.KernelIdeal.Frame.frame m ρ

/-- The reference's arguments end as launched: none of its operations writes one. -/
theorem ref_args (m' : (ℓ : Loc Cert.ReferenceIdeal.nD Cert.ReferenceIdeal.τ Cert.ReferenceIdeal.sig) → Buf (Elt Ideal) ℓ)
    (r : PUnit × MemSt Cert.ReferenceIdeal.nD Cert.ReferenceIdeal.τ Cert.ReferenceIdeal.sig (Elt Ideal))
    (h : ∀ (d : Dev Cert.ReferenceIdeal.nD) (b : Ref Cert.ReferenceIdeal.sig .tc),
      r.2.mem ((d.tc : Thread Cert.ReferenceIdeal.nD Cert.ReferenceIdeal.τ).loc b)
        = after Cert.ReferenceIdeal.RefRun.ops (launchContents m' d) (Proc.devRef .tc b)) (c : Dev Cert.ReferenceIdeal.nD) :
    r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
    ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
    ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
    ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
    ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
    ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
    ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) :=
  ⟨(h c _).trans (Cert.ReferenceIdeal.RValue.arg_kept _ Cert.ReferenceIdeal.main_arg0 (by decide)),
   (h c _).trans (Cert.ReferenceIdeal.RValue.arg_kept _ Cert.ReferenceIdeal.main_arg1 (by decide)),
   (h c _).trans (Cert.ReferenceIdeal.RValue.arg_kept _ Cert.ReferenceIdeal.main_arg2 (by decide)),
   (h c _).trans (Cert.ReferenceIdeal.RValue.arg_kept _ Cert.ReferenceIdeal.main_arg3 (by decide)),
   (h c _).trans (Cert.ReferenceIdeal.RValue.arg_kept _ Cert.ReferenceIdeal.main_arg4 (by decide)),
   (h c _).trans (Cert.ReferenceIdeal.RValue.arg_kept _ Cert.ReferenceIdeal.main_arg5 (by decide)),
   (h c _).trans (Cert.ReferenceIdeal.RValue.arg_kept _ Cert.ReferenceIdeal.main_arg6 (by decide))⟩

theorem frame_ri : Cert.frame_ReferenceIdeal := fun m ρ _ =>
  (θ_run Cert.ReferenceIdeal.defs _ _).mono (fun r h c => ref_args m r h c) (Cert.ReferenceIdeal.RefRun.run_after (F := Ideal) m ρ)

theorem preserves : Cert.preserves_Kernel_KernelIdeal := trivial

/-- What the kernel program's last buffer ends holding is what the reference's does, from memories that agree on the
    arguments: the region's result array and the reference's perceptron buffer hold the same perceptron, and the
    propagation after them is one term of it, the hop weights and the edge list. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (Pipeline.afterTail₀ Cert.KernelIdeal.cfgs (Cert.KernelIdeal.Frame.dats m) 0 (Cert.KernelIdeal.Frame.V0 m) Cert.KernelIdeal.Frame.tail c Cert.KernelIdeal.main_v214
        : Cert.KernelIdeal.S100000x16.Idx → EReal)
      = after Cert.ReferenceIdeal.RefRun.ops (launchContents m' c) (Proc.devRef .tc Cert.ReferenceIdeal.main_v220) := by
  -- the reference's operations are the perceptron's eleven, then the propagation's
  have hsplit : after (Cert.ReferenceIdeal.RefRun.ops (F := Ideal)) (launchContents m' c) (Proc.devRef .tc Cert.ReferenceIdeal.main_v220)
      = after Cert.ReferenceIdeal.RefRun.opsTail (after Cert.ReferenceIdeal.RefRun.opsMlp (launchContents m' c)) (Proc.devRef .tc Cert.ReferenceIdeal.main_v220) :=
    congrFun (StableHlo.after_append Cert.ReferenceIdeal.RefRun.opsMlp Cert.ReferenceIdeal.RefRun.opsTail (launchContents m' c)) _
  unfold Pipeline.afterTail₀
  simp only [Cert.KernelIdeal.Frame.tail, List.flatten_cons, List.flatten_nil, List.append_nil]
  rw [hsplit]
  -- the perceptron: the region's result array against the reference's eleven operations
  have hR : (after Cert.ReferenceIdeal.RefRun.opsMlp (launchContents m' c) (Proc.devRef .tc Cert.ReferenceIdeal.main_v8) : Cert.ReferenceIdeal.S100000x16.Idx → EReal)
      = Cert.Mlp.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (fun k => m ((c.tc : Thread Cert.KernelIdeal.nD Cert.KernelIdeal.τ).loc Cert.KernelIdeal.main_arg2) (ix1 k)) (m ((c.tc : Thread Cert.KernelIdeal.nD Cert.KernelIdeal.τ).loc Cert.KernelIdeal.main_arg3))
          (fun q => m ((c.tc : Thread Cert.KernelIdeal.nD Cert.KernelIdeal.τ).loc Cert.KernelIdeal.main_arg4) (ix1 q)) := by
    rw [Cert.ReferenceIdeal.RValue.mlp_read, Cert.ReferenceIdeal.RValue.mlpTerm_eq]
    show Cert.Mlp.mlp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (fun k => m' ((c.tc : Thread Cert.ReferenceIdeal.nD Cert.ReferenceIdeal.τ).loc Cert.ReferenceIdeal.main_arg2) (ix1 k)) (m' ((c.tc : Thread Cert.ReferenceIdeal.nD Cert.ReferenceIdeal.τ).loc Cert.ReferenceIdeal.main_arg3))
          (fun q => m' ((c.tc : Thread Cert.ReferenceIdeal.nD Cert.ReferenceIdeal.τ).loc Cert.ReferenceIdeal.main_arg4) (ix1 q)) = _
    rw [h0, h1, h2, h3, h4]
  refine Cert.Tails.tails_agree _ _ ?_ ?_ ?_
  · exact (Pipeline.withArrays_arr Cert.KernelIdeal.spec0 Cert.KernelIdeal.Gen.launch0.win.arr_inj c _ _ 5).trans
      ((Cert.KernelIdeal.KValue.final m c).trans hR.symm)
  · exact ((Pipeline.withArrays_of_ne Cert.KernelIdeal.spec0 c (Cert.KernelIdeal.Frame.V0 m c) _ Cert.KernelIdeal.main_arg5 (by decide)).trans
      (Cert.KernelIdeal.Frame.V_of_lt m c Cert.KernelIdeal.main_arg5 (by decide))).trans
      (h5.symm.trans (Cert.ReferenceIdeal.RValue.mlp_kept (launchContents m' c) Cert.ReferenceIdeal.main_arg5 (by decide)).symm)
  · exact ((Pipeline.withArrays_of_ne Cert.KernelIdeal.spec0 c (Cert.KernelIdeal.Frame.V0 m c) _ Cert.KernelIdeal.main_arg6 (by decide)).trans
      (Cert.KernelIdeal.Frame.V_of_lt m c Cert.KernelIdeal.main_arg6 (by decide))).trans
      (h6.symm.trans (Cert.ReferenceIdeal.RValue.mlp_kept (launchContents m' c) Cert.ReferenceIdeal.main_arg6 (by decide)).symm)

/-- Both idealized programs run, from memories agreeing on the arguments, to equal results and unchanged arguments. -/
theorem algebraic : Cert.algebraic_KernelIdeal_ReferenceIdeal := by
  intro m ρ m' ρ' _ hagree
  refine ⟨fun c => after Cert.ReferenceIdeal.RefRun.ops (launchContents m' c) (Proc.devRef .tc Cert.ReferenceIdeal.main_v220), ?_, ?_⟩
  · refine (θ_run Cert.KernelIdeal.defs _ _).mono (fun r h c => ⟨?_, Cert.KernelIdeal.Frame.args_kept m r h c⟩) (Cert.KernelIdeal.Frame.run_main m ρ)
    obtain ⟨h0, h1, h2, h3, h4, h5, h6⟩ := hagree c
    exact ((h c).2 Cert.KernelIdeal.main_v214 (Pipeline.mem_restRefs_of Cert.KernelIdeal.main_v214 (by decide) (by decide))).trans
      (result_eq m m' c h0 h1 h2 h3 h4 h5 h6)
  · exact (θ_run Cert.ReferenceIdeal.defs _ _).mono (fun r h c => ⟨h c Cert.ReferenceIdeal.main_v220, ref_args m' r h c⟩)
      (Cert.ReferenceIdeal.RefRun.run_after (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
